-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048x10 : Shape := ⟨3, ![4096, 2048, 10]⟩
abbrev S_ : Shape := ⟨0, ![]⟩

class Facts : Prop where
  bcast_S_S4096x2048x10 : S_.BroadcastsInDim S4096x2048x10 (![] : Fin 0 → Fin S4096x2048x10.rank)
  reducesTo_S4096x2048x10_S_d0_1_2 : S4096x2048x10.ReducesTo [0, 1, 2] S_
  h_S_ : 0 < S_.numel

variable [Facts]

def fn {F : FTy → Type} [FloatOps F] (main_arg0 : FVec F S4096x2048x10 .f32) : IVec S_ 1 :=
  let main_v0 : FVec F S4096x2048x10 .f32 := Host.absf main_arg0
  let main_cst : FVec F S_ .f32 := constant S_ .f32 0x7F800000#32
  let main_v1 : FVec F S4096x2048x10 .f32 := broadcastInDim S4096x2048x10 ![] bcast_S_S4096x2048x10 main_cst
  let main_v2 : IVec S4096x2048x10 1 := cmpf .olt main_v0 main_v1
  let main_c : IVec S_ 1 := constantI S_ 1 1#1
  let main_v3 : IVec S_ 1 := (fun x v => Host.reduce IntOp.andi x v reducesTo_S4096x2048x10_S_d0_1_2 h_S_) main_v2 main_c
  main_v3
-- ==== Kernel.lean ====
abbrev S4096x2048x10 : Shape := ⟨3, ![4096, 2048, 10]⟩
abbrev S16x8x128 : Shape := ⟨3, ![16, 8, 128]⟩
abbrev S256x32x10 : Shape := ⟨3, ![256, 32, 10]⟩
abbrev S1x8x128 : Shape := ⟨3, ![1, 8, 128]⟩
abbrev S256x32x5 : Shape := ⟨3, ![256, 32, 5]⟩
abbrev S256x32x4 : Shape := ⟨3, ![256, 32, 4]⟩
abbrev S256x32x1 : Shape := ⟨3, ![256, 32, 1]⟩
abbrev S256x32 : Shape := ⟨2, ![256, 32]⟩
abbrev S32x4 : Shape := ⟨2, ![32, 4]⟩
abbrev S32 : Shape := ⟨1, ![32]⟩
abbrev S32x1 : Shape := ⟨2, ![32, 1]⟩
abbrev S1 : Shape := ⟨1, ![1]⟩
abbrev S1x1 : Shape := ⟨2, ![1, 1]⟩
abbrev S256 : Shape := ⟨1, ![256]⟩
abbrev S256x1 : Shape := ⟨2, ![256, 1]⟩
abbrev S1x1x1 : Shape := ⟨3, ![1, 1, 1]⟩
abbrev S_ : Shape := ⟨0, ![]⟩

abbrev nBuf : Space → Nat
  | .hbm => 6
  | .vmem => 4
  | .smem => 0
  | _ => 0

abbrev bufTy : (tb : Table) → Fin (tcTables nBuf tb) → BufTy
  | .hbm, ⟨0, _⟩ => ⟨S4096x2048x10, .f32⟩
  | .hbm, ⟨1, _⟩ => ⟨S16x8x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S256x32x10, .f32⟩
  | .local _ .vmem, ⟨1, _⟩ => ⟨S256x32x10, .f32⟩
  | .local _ .vmem, ⟨2, _⟩ => ⟨S1x8x128, .f32⟩
  | .local _ .vmem, ⟨3, _⟩ => ⟨S1x8x128, .f32⟩
  | _, _ => ⟨S4096x2048x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S256x32x10_S256x32x10_0_0_0 : ∀ a, (![0, 0, 0] : Fin 3 → Nat) a + S256x32x10.size a ≤ S256x32x10.size a
  h_S256x32x10 : 0 < S256x32x10.numel
  slices_S256x32x10_o0_0_0_S256x32x5 : S256x32x10.Slices ![0, 0, 0] S256x32x5
  slices_S256x32x10_o0_0_5_S256x32x5 : S256x32x10.Slices ![0, 0, 5] S256x32x5
  slices_S256x32x5_o0_0_0_S256x32x4 : S256x32x5.Slices ![0, 0, 0] S256x32x4
  slices_S256x32x5_o0_0_1_S256x32x4 : S256x32x5.Slices ![0, 0, 1] S256x32x4
  slices_S256x32x5_o0_0_0_S256x32x1 : S256x32x5.Slices ![0, 0, 0] S256x32x1
  shapeCasts_S256x32x1_S256x32 : S256x32x1.ShapeCasts S256x32
  reduces_S256x32x4_S32x4 : S256x32x4.Reduces [0] S32x4
  reduces_S32x4_S32 : S32x4.Reduces [1] S32
  shapeCasts_S32_S32x1 : S32.ShapeCasts S32x1
  reduces_S32x1_S1 : S32x1.Reduces [0] S1
  shapeCasts_S1_S1x1 : S1.ShapeCasts S1x1
  reduces_S256x32_S256 : S256x32.Reduces [1] S256
  shapeCasts_S256_S256x1 : S256.ShapeCasts S256x1
  reduces_S256x1_S1 : S256x1.Reduces [0] S1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  reducesTo_S16x8x128_S_d0_1_2 : S16x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x10.size a ≤ S4096x2048x10.size a
  hwx0_0 : ∀ i : grid0.Coords, EltTy.bits .f32 = 32 ∨ (Rect.block (s := S4096x2048x10) S256x32x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S16x8x128.size a
  hwx0_1 : ∀ i : grid0.Coords, EltTy.bits .f32 = 32 ∨ (Rect.block (s := S16x8x128) S1x8x128.size (cc0_transform_1 i) (hinb0_1 i)).WholeWords (EltTy.packing .f32)

variable [Facts₀]

abbrev win0_0 : Pipeline.Window sig grid0 :=
  Pipeline.Window.ofSpec (Memref.whole main_arg0) S256x32x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048x10 : Shape := ⟨3, ![4096, 2048, 10]⟩
abbrev S4096x2048x5 : Shape := ⟨3, ![4096, 2048, 5]⟩
abbrev S4096x2048x4 : Shape := ⟨3, ![4096, 2048, 4]⟩
abbrev S_ : Shape := ⟨0, ![]⟩
abbrev S4096x2048x1 : Shape := ⟨3, ![4096, 2048, 1]⟩
abbrev S4096x2048 : Shape := ⟨2, ![4096, 2048]⟩
abbrev S2048x4 : Shape := ⟨2, ![2048, 4]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048x10, .f32⟩
  | .hbm, ⟨1, _⟩ => ⟨S4096x2048x5, .f32⟩
  | .hbm, ⟨2, _⟩ => ⟨S4096x2048x5, .f32⟩
  | .hbm, ⟨3, _⟩ => ⟨S4096x2048x4, .f32⟩
  | .hbm, ⟨4, _⟩ => ⟨S4096x2048x4, .f32⟩
  | .hbm, ⟨5, _⟩ => ⟨S4096x2048x4, .f32⟩
  | .hbm, ⟨6, _⟩ => ⟨S_, .f32⟩
  | .hbm, ⟨7, _⟩ => ⟨S4096x2048x4, .f32⟩
  | .hbm, ⟨8, _⟩ => ⟨S4096x2048x4, .f32⟩
  | .hbm, ⟨9, _⟩ => ⟨S4096x2048x4, .f32⟩
  | .hbm, ⟨10, _⟩ => ⟨S4096x2048x4, .f32⟩
  | .hbm, ⟨11, _⟩ => ⟨S4096x2048x4, .f32⟩
  | .hbm, ⟨12, _⟩ => ⟨S_, .f32⟩
  | .hbm, ⟨13, _⟩ => ⟨S4096x2048x4, .f32⟩
  | .hbm, ⟨14, _⟩ => ⟨S4096x2048x4, .f32⟩
  | .hbm, ⟨15, _⟩ => ⟨S4096x2048x1, .f32⟩
  | .hbm, ⟨16, _⟩ => ⟨S4096x2048, .f32⟩
  | .hbm, ⟨17, _⟩ => ⟨S4096x2048x1, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048x4, .f32⟩
  | .hbm, ⟨25, _⟩ => ⟨S_, .f32⟩
  | .hbm, ⟨26, _⟩ => ⟨S2048x4, .f32⟩
  | .hbm, ⟨27, _⟩ => ⟨S2048x4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048x4, .f32⟩
  | .hbm, ⟨32, _⟩ => ⟨S_, .f32⟩
  | .hbm, ⟨33, _⟩ => ⟨S2048x4, .f32⟩
  | .hbm, ⟨34, _⟩ => ⟨S2048x4, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S_, .f32⟩
  | .hbm, ⟨44, _⟩ => ⟨S_, .f32⟩
  | .hbm, ⟨45, _⟩ => ⟨S_, .f32⟩
  | _, _ => ⟨S4096x2048x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_call0_cst : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call1_cst : Ref sig .tc := ⟨.hbm, 12, rfl⟩
abbrev main_call1_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call2_cst : Ref sig .tc := ⟨.hbm, 20, rfl⟩
abbrev main_call2_v0 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  slices_S4096x2048x10_S4096x2048x5_0_0_0 : S4096x2048x10.Slices ![0, 0, 0] S4096x2048x5
  slices_S4096x2048x10_S4096x2048x5_0_0_5 : S4096x2048x10.Slices ![0, 0, 5] S4096x2048x5
  slices_S4096x2048x5_S4096x2048x4_0_0_0 : S4096x2048x5.Slices ![0, 0, 0] S4096x2048x4
  slices_S4096x2048x5_S4096x2048x4_0_0_1 : S4096x2048x5.Slices ![0, 0, 1] S4096x2048x4
  bcast_S_S4096x2048x4 : S_.BroadcastsInDim S4096x2048x4 (![] : Fin 0 → Fin S4096x2048x4.rank)
  slices_S4096x2048x5_S4096x2048x1_0_0_0 : S4096x2048x5.Slices ![0, 0, 0] S4096x2048x1
  shapeCasts_S4096x2048x1_S4096x2048 : S4096x2048x1.ShapeCasts S4096x2048
  bcast_S_S4096x2048 : S_.BroadcastsInDim S4096x2048 (![] : Fin 0 → Fin S4096x2048.rank)
  reducesTo_S4096x2048x4_S2048x4_d0 : S4096x2048x4.ReducesTo [0] S2048x4
  h_S_ : 0 < S_.numel
  bcast_S_S2048x4 : S_.BroadcastsInDim S2048x4 (![] : Fin 0 → Fin S2048x4.rank)
  reducesTo_S2048x4_S_d0_1 : S2048x4.ReducesTo [0, 1] S_
  reducesTo_S4096x2048_S2048_d0 : S4096x2048.ReducesTo [0] S2048
  bcast_S_S2048 : S_.BroadcastsInDim S2048 (![] : Fin 0 → Fin S2048.rank)
  reducesTo_S2048_S_d0 : S2048.ReducesTo [0] S_

variable [Facts₀]

class Facts : Prop extends Facts₀ where

variable [Facts]
-- ==== Proof.TileCases.lean ====
/-
  What one grid point leaves in the output tile, case by case.

  The output tile of batch tile `i` is live across the 64 sequence steps `j`. At `j = 0` the body first stores
  the zero tile, reads it back and adds this step's contribution; at `j > 0` it adds the contribution to what
  the step before left. In both cases the stored tile is `pay1 (pay3 x) old`: `pay3 x` is the block's partial
  sum of violations (a 1×1 vector) and `pay1` scales it by 2⁻¹⁰, spreads it over the 8×128 tile and adds `old`.
-/
import proofs.«175813_j9380208574579_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tile

open Cert.KernelIdeal Cert.KernelIdeal.Gen

variable {F : FTy → Type} [FloatOps F]

theorem hz3 : (![0, 0, 0] : Fin 3 → Nat) = fun _ => 0 := funext fun a => by fin_cases a <;> rfl

/-- A later step (`j > 0`): the tile holding `old` ends holding `old` plus the scaled, spread partial sum of
    the input block `x`. -/
theorem later_step (c : Dev nD) (i : grid0.Coords) (a1 : Memref sig .tc .vmem S256x32x10 .f32) (h1 : a1.IsWhole)
    (a2 : Memref sig .tc .vmem S1x8x128 .f32) (h2 : a2.IsWhole) (hc : ¬cond0_0 i)
    (x : Vec F S256x32x10 .f32) (old : Vec F S1x8x128 .f32) :
    out0_B_1 c i a1 h1 a2 h2 hc x old = k0_pay1 (k0_pay3 x) old := by
  unfold out0_B_1
  rw [View.read_writes_eq_canon _ _ _ (cover0_B_1 c i a1 h1 a2 h2 hc x old)]
  unfold kernelRun0_B
  dsimp only
  sl_unfold_words
  rw [View.canon_unit_zero hz3]
  simp only [View.readAt_eq_ld, h1.read_unread, h2.read_unread, View.ld_unit_zero (S := S256x32x10) hz3,
    View.ld_unit_zero (S := S1x8x128) hz3]

/-- The first step (`j = 0`): the tile ends holding the zero tile plus the scaled, spread partial sum. -/
theorem first_step (c : Dev nD) (i : grid0.Coords) (a1 : Memref sig .tc .vmem S256x32x10 .f32) (h1 : a1.IsWhole)
    (a2 : Memref sig .tc .vmem S1x8x128 .f32) (h2 : a2.IsWhole) (hc : cond0_0 i)
    (x : Vec F S256x32x10 .f32) :
    out0_A_1 c i a1 h1 a2 h2 hc x = k0_pay1 (k0_pay3 x) (k0_pay2 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x8x128) hz3, View.readCov_unit_zero (S := S1x8x128) _ hz3]
  simp only [View.readAt_eq_ld, h1.read_unread, View.ld_unit_zero (S := S256x32x10) hz3]

end Cert.KernelIdeal.Tile

end
-- ==== Proof.Consts.lean ====
/-
  The float constants the two programs spell, as the extended reals their patterns denote:
  `9.765625e-4` is exactly 2⁻¹⁰ = 1/1024 and `4096.0` is 4096.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `4096.0`, the divisor of both programs' mean over the batch, denotes the real `4096`. -/
theorem ofBits_4096 : Ideal.ofBits .f32 0x45800000#32 = ((4096 : ℝ) : EReal) := by
  simp [Ideal.ofBits, Ideal.ieee, -EReal.coe_mul]; norm_num

/-- `9.765625e-4`, the kernel's scale `1 / (8 · 128)`, denotes the real `1/1024` exactly (a power of two). -/
theorem ofBits_inv1024 : Ideal.ofBits .f32 0x3A800000#32 = ((1 / 1024 : ℝ) : EReal) := by
  simp [Ideal.ofBits, Ideal.ieee, -EReal.coe_mul]; norm_num

/-- The quotient by `4096.0` is the product with 1/4096, at the infinities too. -/
theorem div_4096 (u : EReal) : Ideal.div u (Ideal.ofBits .f32 0x45800000#32) = u * ((1 / 4096 : ℝ) : EReal) := by
  rw [ofBits_4096, Ideal.div_coe (by norm_num : (4096 : ℝ) ≠ 0)]

end Cert.Consts

end
-- ==== Proof.Spec.lean ====
/-
  The specification: the loss as ONE function of the predictions.

  A row `x[b, s, ·]` holds five bid levels (features 0..4) then five ask levels (features 5..9). Three kinds of
  violation are penalised, each a `max _ 0`:
    ask ordering  (k = 0..3):  ask_k − ask_{k+1}      = x[b,s,5+k] − x[b,s,6+k]
    bid ordering  (k = 0..3):  bid_{k+1} − bid_k      = x[b,s,1+k] − x[b,s,k]
    crossed book            :  bid_0 − ask_0          = x[b,s,0]   − x[b,s,5]
  The loss is the total of all violations over batch, sequence and level, divided by the batch size 4096.
  Every violation is nonnegative, which is what lets a common factor move across the sums on the extended reals.
-/
import Idealize.ShloMosaic.PureOps.Ideal
import Idealize.ShloMosaic.Lib.ValueIdx

noncomputable section

namespace Cert.Spec

open Idealize.ShloMosaic Idealize.ShloMosaic.ValueIdx

/-- An array of order-book rows: `nb` batch entries, `ns` sequence positions, 10 features. -/
abbrev Book (nb ns : ℕ) := (⟨3, ![nb, ns, 10]⟩ : Shape).Idx → EReal

variable {nb ns : ℕ}

/-- Ask-ordering violation at level `k`. -/
def askV (x : Book nb ns) (b : Fin nb) (s : Fin ns) (k : Fin 4) : EReal :=
  max (x (ix3 b s (⟨5 + k.val, by omega⟩ : Fin 10)) - x (ix3 b s (⟨6 + k.val, by omega⟩ : Fin 10))) 0

/-- Bid-ordering violation at level `k`. -/
def bidV (x : Book nb ns) (b : Fin nb) (s : Fin ns) (k : Fin 4) : EReal :=
  max (x (ix3 b s (⟨1 + k.val, by omega⟩ : Fin 10)) - x (ix3 b s (⟨k.val, by omega⟩ : Fin 10))) 0

/-- Crossed-book violation. -/
def crossV (x : Book nb ns) (b : Fin nb) (s : Fin ns) : EReal :=
  max (x (ix3 b s (⟨0, by omega⟩ : Fin 10)) - x (ix3 b s (⟨5, by omega⟩ : Fin 10))) 0

theorem askV_nonneg (x : Book nb ns) (b : Fin nb) (s : Fin ns) (k : Fin 4) : 0 ≤ askV x b s k := le_max_right _ _
theorem bidV_nonneg (x : Book nb ns) (b : Fin nb) (s : Fin ns) (k : Fin 4) : 0 ≤ bidV x b s k := le_max_right _ _
theorem crossV_nonneg (x : Book nb ns) (b : Fin nb) (s : Fin ns) : 0 ≤ crossV x b s := le_max_right _ _

/-- The sum of every violation of a block of rows, in the order a 256 × 32 block is reduced: the ask and bid
    violations over batch, then level, then sequence; the crossed-book ones over sequence, then batch. -/
def blockSum (x : Book 256 32) : EReal :=
  ((∑ s : Fin 32, ∑ k : Fin 4, ∑ b : Fin 256, askV x b s k) + (∑ s : Fin 32, ∑ k : Fin 4, ∑ b : Fin 256, bidV x b s k))
    + ∑ b : Fin 256, ∑ s : Fin 32, crossV x b s

theorem blockSum_nonneg (x : Book 256 32) : 0 ≤ blockSum x :=
  add_nonneg (add_nonneg
    (Finset.sum_nonneg fun s _ => Finset.sum_nonneg fun k _ => Finset.sum_nonneg fun b _ => askV_nonneg x b s k)
    (Finset.sum_nonneg fun s _ => Finset.sum_nonneg fun k _ => Finset.sum_nonneg fun b _ => bidV_nonneg x b s k))
    (Finset.sum_nonneg fun b _ => Finset.sum_nonneg fun s _ => crossV_nonneg x b s)

/-- The total of every violation of the whole array. -/
def total (x : Book 4096 2048) : EReal :=
  ((∑ b : Fin 4096, ∑ s : Fin 2048, ∑ k : Fin 4, askV x b s k) + (∑ b : Fin 4096, ∑ s : Fin 2048, ∑ k : Fin 4, bidV x b s k))
    + ∑ b : Fin 4096, ∑ s : Fin 2048, crossV x b s

/-- The loss: the total divided by the batch size. -/
def loss (x : Book 4096 2048) : EReal := total x * ((1 / 4096 : ℝ) : EReal)

end Cert.Spec

end
-- ==== Proof.Payload.lean ====
/-
  The body's arithmetic at the exact values.

  `pay3 x` — three trailing-axis sum trees over a 256 × 32 × 10 block `x` — is the block's sum of violations
  (`Spec.blockSum`), at its one index. `pay1 p old` adds, at every index of the 8 × 128 tile, `p · (1/1024)` to `old`.
  `pay2` is the zero tile.
-/
import proofs.«175813_j9380208574579_2_alg».proof.Proof.Gen.KernelIdeal.Skeleton
import proofs.«175813_j9380208574579_2_alg».proof.Proof.Consts
import proofs.«175813_j9380208574579_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.Spec

/-! ## Sum trees -/

/-- Batch, then level, then sequence: a 256 × 32 × 4 vector summed to its one total. -/
theorem sum_tree3 (v : FVec Ideal S256x32x4 .f32) (h1 : S256x32x4.Reduces [0] S32x4) (h2 : S32x4.Reduces [1] S32)
    (h3 : S32x1.Reduces [0] S1) (c1 : S32.ShapeCasts S32x1) (c2 : S1.ShapeCasts S1x1) (hφ : FKind.Formats .f32)
    (hacc : (0x00000000#32 : BitVec 32) = FKind.add.neutral .f32 hφ) (j : S1x1.Idx) :
    shapeCast S1x1 (multiReduction .add [0] S1 (shapeCast S32x1 (multiReduction .add [1] S32
      (multiReduction .add [0] S32x4 v 0x00000000#32 h1 hφ hacc) 0x00000000#32 h2 hφ hacc) c1) 0x00000000#32 h3 hφ hacc) c2 j
      = ∑ s : Fin 32, ∑ k : Fin 4, ∑ b : Fin 256, v (ix3 b s k) := by
  refine (shapeCast_apply _ c2 j (ix1 (0 : Fin 1)) ?_).trans ?_
  · rw [Shape.rowMajor_val_one, Shape.rowMajor_val_two]
    have h0 := idx2_lt0 j; have h1' := idx2_lt1 j
    show (0 : ℕ) = (j 0).val * 1 + (j 1).val
    omega
  refine (Ideal.multiReduction_add_single _ _ h3 hφ hacc (ix1 (0 : Fin 1))).trans ?_
  show ∑ s : Fin 32, shapeCast S32x1 _ c1 (h3.lift (ix1 (0 : Fin 1)) s) = _
  refine Finset.sum_congr rfl fun s _ => ?_
  refine (shapeCast_apply _ c1 _ (ix1 s) ?_).trans ?_
  · rw [Shape.rowMajor_val_one, Shape.rowMajor_val_two]
    show s.val = s.val * 1 + 0
    omega
  refine (Ideal.multiReduction_add_single _ _ h2 hφ hacc (ix1 s)).trans ?_
  show ∑ k : Fin 4, multiReduction .add [0] S32x4 v 0x00000000#32 h1 hφ hacc (h2.lift (ix1 s) k) = _
  refine Finset.sum_congr rfl fun k _ => ?_
  refine (Ideal.multiReduction_add_single v _ h1 hφ hacc _).trans ?_
  show ∑ b : Fin 256, v (h1.lift (h2.lift (ix1 s) k) b) = _
  refine Finset.sum_congr rfl fun b _ => congrArg v (funext fun a => Fin.ext ?_)
  match a with
  | ⟨0, _⟩ => rfl
  | ⟨1, _⟩ => rfl
  | ⟨2, _⟩ => rfl

/-- Sequence, then batch: a 256 × 32 vector summed to its one total. -/
theorem sum_tree2 (v : FVec Ideal S256x32 .f32) (h1 : S256x32.Reduces [1] S256) (h2 : S256x1.Reduces [0] S1)
    (c1 : S256.ShapeCasts S256x1) (c2 : S1.ShapeCasts S1x1) (hφ : FKind.Formats .f32)
    (hacc : (0x00000000#32 : BitVec 32) = FKind.add.neutral .f32 hφ) (j : S1x1.Idx) :
    shapeCast S1x1 (multiReduction .add [0] S1 (shapeCast S256x1
      (multiReduction .add [1] S256 v 0x00000000#32 h1 hφ hacc) c1) 0x00000000#32 h2 hφ hacc) c2 j
      = ∑ b : Fin 256, ∑ s : Fin 32, v (ix2 b s) := by
  refine (shapeCast_apply _ c2 j (ix1 (0 : Fin 1)) ?_).trans ?_
  · rw [Shape.rowMajor_val_one, Shape.rowMajor_val_two]
    have h0 := idx2_lt0 j; have h1' := idx2_lt1 j
    show (0 : ℕ) = (j 0).val * 1 + (j 1).val
    omega
  refine (Ideal.multiReduction_add_single _ _ h2 hφ hacc (ix1 (0 : Fin 1))).trans ?_
  show ∑ b : Fin 256, shapeCast S256x1 _ c1 (h2.lift (ix1 (0 : Fin 1)) b) = _
  refine Finset.sum_congr rfl fun b _ => ?_
  refine (shapeCast_apply _ c1 _ (ix1 b) ?_).trans ?_
  · rw [Shape.rowMajor_val_one, Shape.rowMajor_val_two]
    show b.val = b.val * 1 + 0
    omega
  refine (Ideal.multiReduction_add_single v _ h1 hφ hacc (ix1 b)).trans ?_
  show ∑ s : Fin 32, v (h1.lift (ix1 b) s) = _
  refine Finset.sum_congr rfl fun s _ => congrArg v (funext fun a => Fin.ext ?_)
  match a with
  | ⟨0, _⟩ => rfl
  | ⟨1, _⟩ => rfl

/-! ## Feature windows of a block -/

/-- Four consecutive features starting at `o1 + o2`, cut in two steps (five features from `o1`, then four from
    `o2` of those). -/
theorem levels4 (o1 o2 : ℕ) (ho1 : o1 + 5 ≤ 10) (ho2 : o2 + 4 ≤ 5) (x : FVec Ideal S256x32x10 .f32)
    (h1 : S256x32x10.Slices ![0, 0, o1] S256x32x5) (h2 : S256x32x5.Slices ![0, 0, o2] S256x32x4)
    (b : Fin 256) (s : Fin 32) (k : Fin 4) :
    extractStridedSlice S256x32x4 ![0, 0, o2] (extractStridedSlice S256x32x5 ![0, 0, o1] x h1) h2 (ix3 b s k)
      = x (ix3 b s (⟨o1 + o2 + k.val, by omega⟩ : Fin 10)) := by
  refine (extractStridedSlice_apply _ _ h2 _ (ix3 b s (⟨o2 + k.val, by omega⟩ : Fin 5)) (fun a => ?_)).trans ?_
  · match a with
    | ⟨0, _⟩ => show b.val = 0 + b.val; omega
    | ⟨1, _⟩ => show s.val = 0 + s.val; omega
    | ⟨2, _⟩ => show o2 + k.val = o2 + k.val; rfl
  refine extractStridedSlice_apply _ x h1 _ _ (fun a => ?_)
  match a with
  | ⟨0, _⟩ => show b.val = 0 + b.val; omega
  | ⟨1, _⟩ => show s.val = 0 + s.val; omega
  | ⟨2, _⟩ => show o1 + o2 + k.val = o1 + (o2 + k.val); omega

/-- One feature `o1`, cut in two steps and its unit axis dropped. -/
theorem level1 (o1 : ℕ) (ho1 : o1 + 5 ≤ 10) (x : FVec Ideal S256x32x10 .f32)
    (h1 : S256x32x10.Slices ![0, 0, o1] S256x32x5) (h2 : S256x32x5.Slices ![0, 0, 0] S256x32x1)
    (c : S256x32x1.ShapeCasts S256x32) (b : Fin 256) (s : Fin 32) :
    shapeCast S256x32 (extractStridedSlice S256x32x1 ![0, 0, 0] (extractStridedSlice S256x32x5 ![0, 0, o1] x h1) h2) c (ix2 b s)
      = x (ix3 b s (⟨o1, by omega⟩ : Fin 10)) := by
  refine (shapeCast_apply _ c _ (ix3 b s (0 : Fin 1)) ?_).trans ?_
  · rw [Shape.rowMajor_val_two, Shape.rowMajor_val_three]
    show (b.val * 32 + s.val) * 1 + 0 = b.val * 32 + s.val
    omega
  refine (extractStridedSlice_apply _ _ h2 _ (ix3 b s (⟨0, by omega⟩ : Fin 5)) (fun a => ?_)).trans ?_
  · match a with
    | ⟨0, _⟩ => show b.val = 0 + b.val; omega
    | ⟨1, _⟩ => show s.val = 0 + s.val; omega
    | ⟨2, _⟩ => rfl
  refine extractStridedSlice_apply _ x h1 _ _ (fun a => ?_)
  match a with
  | ⟨0, _⟩ => show b.val = 0 + b.val; omega
  | ⟨1, _⟩ => show s.val = 0 + s.val; omega
  | ⟨2, _⟩ => show o1 = o1 + 0; omega

/-! ## The payloads -/

/-- The block's partial sum is the sum of the block's violations, at its one index. -/
theorem pay3_apply (x : FVec Ideal S256x32x10 .f32) (j : S1x1.Idx) : k0_pay3 (F := Ideal) x j = blockSum x := by
  unfold k0_pay3
  dsimp only
  show (_ + _) + _ = (_ + _) + _
  refine congrArg₂ (· + ·) (congrArg₂ (· + ·) ?_ ?_) ?_
  · refine (sum_tree3 _ _ _ _ _ _ _ _ j).trans ?_
    refine Finset.sum_congr rfl fun s _ => Finset.sum_congr rfl fun k _ => Finset.sum_congr rfl fun b _ => ?_
    show max (_ - _) (Ideal.ofBits .f32 0x00000000#32) = askV x b s k
    rw [levels4 5 0 (by omega) (by omega), levels4 5 1 (by omega) (by omega), Cert.Consts.ofBits_zero]
    unfold askV
    exact congrArg₂ (fun u w => max (x (ix3 b s u) - x (ix3 b s w)) 0) (Fin.ext (by show 5 + 0 + k.val = 5 + k.val; omega))
      (Fin.ext (by show 5 + 1 + k.val = 6 + k.val; omega))
  · refine (sum_tree3 _ _ _ _ _ _ _ _ j).trans ?_
    refine Finset.sum_congr rfl fun s _ => Finset.sum_congr rfl fun k _ => Finset.sum_congr rfl fun b _ => ?_
    show max (_ - _) (Ideal.ofBits .f32 0x00000000#32) = bidV x b s k
    rw [levels4 0 1 (by omega) (by omega), levels4 0 0 (by omega) (by omega), Cert.Consts.ofBits_zero]
    unfold bidV
    exact congrArg₂ (fun u w => max (x (ix3 b s u) - x (ix3 b s w)) 0) (Fin.ext (by show 0 + 1 + k.val = 1 + k.val; omega))
      (Fin.ext (by show 0 + 0 + k.val = k.val; omega))
  · refine (sum_tree2 _ _ _ _ _ _ _ j).trans ?_
    refine Finset.sum_congr rfl fun b _ => Finset.sum_congr rfl fun s _ => ?_
    show max (_ - _) (Ideal.ofBits .f32 0x00000000#32) = crossV x b s
    rw [level1 0 (by omega), level1 5 (by omega), Cert.Consts.ofBits_zero]
    rfl

/-- The zero tile. -/
theorem pay2_apply (y : S1x8x128.Idx) : k0_pay2 (F := Ideal) y = 0 := by
  unfold k0_pay2
  exact Cert.Consts.ofBits_zero

/-- Scale by 1/1024, spread over the tile, add to what was there. -/
theorem pay1_apply (p : FVec Ideal S1x1 .f32) (old : FVec Ideal S1x8x128 .f32) (y : S1x8x128.Idx) :
    k0_pay1 (F := Ideal) p old y = old y + p (ix2 (0 : Fin 1) (0 : Fin 1)) * ((1 / 1024 : ℝ) : EReal) := by
  unfold k0_pay1
  show shapeCast S1x8x128 old _ y + broadcastTo S1x8x128 _ _ y = _
  rw [shapeCast_self]
  refine congrArg (old y + ·) ?_
  refine (broadcastTo_apply _ _ y (ix3 (0 : Fin 1) (0 : Fin 1) (0 : Fin 1)) (fun a => ?_)).trans ?_
  · match a with
    | ⟨0, _⟩ => rfl
    | ⟨1, _⟩ => rfl
    | ⟨2, _⟩ => rfl
  refine (shapeCast_apply _ _ _ (ix2 (0 : Fin 1) (0 : Fin 1)) ?_).trans ?_
  · rw [Shape.rowMajor_val_two, Shape.rowMajor_val_three]
    rfl
  show p (ix2 (0 : Fin 1) (0 : Fin 1)) * Ideal.ofBits .f32 0x3A800000#32 = _
  rw [Cert.Consts.ofBits_inv1024]

end Cert.KernelIdeal.Payload

end
-- ==== Proof.TileFold.lean ====
/-
  The output tile across the 64 sequence steps of one batch tile.

  Grid point `n = 64·i + j` handles batch tile `i` at sequence step `j`. Every entry of the output tile receives,
  at point `n`, the same contribution: the sum of violations of input block `n`, times 1/1024. The tile is reset at
  `j = 0` and accumulated for `j > 0`, so after point `n` each of its entries holds `0` plus the contributions of the
  points `64·(n/64) … n` — the fold over a run of points, unrolled into a sum.
-/
import proofs.«175813_j9380208574579_2_alg».proof.Proof.TileCases
import proofs.«175813_j9380208574579_2_alg».proof.Proof.Payload

noncomputable section

open Idealize.ShloMosaic Idealize.ShloMosaic.TcCoe Idealize.SL.Sem Idealize.ShloMosaic.ValueIdx

namespace Cert.KernelIdeal.Fold

open Cert.KernelIdeal Cert.KernelIdeal.Gen Cert.Spec
open Idealize.ShloMosaic.Pipeline (accAt eq_accAt_of_mod accAt_add_apply)

variable (m : (ℓ : Loc nD τ sig) → Buf (Elt Ideal) ℓ)

/-- The input block grid point `n` reads. -/
abbrev blockAt (c : Dev nD) (n : ℕ) (h : n < cfg0.N) : FVec Ideal S256x32x10 .f32 := iblk m c 0 ⟨n, h⟩

/-- What point `n` adds to every entry of its output tile (zero past the grid, where it is never used). -/
def contrib (c : Dev nD) (n : ℕ) : EReal :=
  if h : n < cfg0.N then blockSum (blockAt m c n h) * ((1 / 1024 : ℝ) : EReal) else 0

theorem contrib_nonneg (c : Dev nD) (n : ℕ) : 0 ≤ contrib m c n := by
  unfold contrib
  split
  · exact mul_nonneg (blockSum_nonneg _) (by exact_mod_cast (by norm_num : (0 : ℝ) ≤ 1 / 1024))
  · exact le_rfl

/-- The tile after a resetting point, and after an accumulating point over what the point before left. -/
def resetAt (c : Dev nD) (n : ℕ) (h : n < cfg0.N) : Vec Ideal S1x8x128 .f32 :=
  k0_pay1 (F := Ideal) (k0_pay3 (F := Ideal) (blockAt m c n h)) (k0_pay2 (F := Ideal))
def stepAt (c : Dev nD) (n : ℕ) (h : n < cfg0.N) (acc : Vec Ideal S1x8x128 .f32) : Vec Ideal S1x8x128 .f32 :=
  k0_pay1 (F := Ideal) (k0_pay3 (F := Ideal) (blockAt m c n h)) acc

/-- The tile after point `t` is the fold over the run of points of `t`'s batch tile up to `t`. -/
theorem outsAt_fold (c : Dev nD) (t : ℕ) (ht : t < cfg0.N) (h' : 64 * (t / 64) + t % 64 < cfg0.N) :
    outsAt0 m c t ht = accAt (resetAt m c) (stepAt m c) (64 * (t / 64)) (t % 64) h' :=
  eq_accAt_of_mod (outsAt0 m c) 64 (resetAt m c) (stepAt m c)
    (fun n h h0 => (outsAt0_A m c ⟨n, h⟩ h0).trans (Tile.first_step ..))
    (fun n h hne => (outsAt0_B m c ⟨n + 1, h⟩ hne).trans (Tile.later_step ..))
    (by norm_num) t ht h'

/-- Every entry of the tile after point `t`: zero plus the contributions of the points of the run so far. -/
theorem tile_after (c : Dev nD) (t : ℕ) (ht : t < cfg0.N) (y : S1x8x128.Idx) :
    outsAt0 m c t ht y = 0 + ∑ s ∈ Finset.range (t % 64 + 1), contrib m c (64 * (t / 64) + s) := by
  have h' : 64 * (t / 64) + t % 64 < cfg0.N := by rw [Nat.div_add_mod]; exact ht
  rw [outsAt_fold m c t ht h']
  refine accAt_add_apply (ι := S1x8x128.Idx) (β := EReal) (resetAt m c) (stepAt m c) (fun _ => 0)
    (fun n _ => contrib m c n) (64 * (t / 64)) (t % 64) ?_ ?_ (t % 64) le_rfl h' y
  · intro h i
    unfold resetAt
    rw [Payload.pay1_apply, Payload.pay2_apply, Payload.pay3_apply]
    unfold contrib
    rw [dif_pos h]
  · intro n h acc i _ _
    unfold stepAt
    rw [Payload.pay1_apply, Payload.pay3_apply]
    unfold contrib
    rw [dif_pos h]

/-- What every entry of batch tile `i`'s output tile holds when it is written back: the 64 steps' contributions. -/
def tileVal (c : Dev nD) (i : ℕ) : EReal := ∑ s ∈ Finset.range 64, contrib m c (64 * i + s)

/-- At the last step of a batch tile (`t % 64 = 63`) the tile holds `tileVal` of that batch tile. -/
theorem tile_last (c : Dev nD) (t : ℕ) (ht : t < cfg0.N) (h63 : t % 64 = 63) (y : S1x8x128.Idx) :
    outsAt0 m c t ht y = tileVal m c (t / 64) := by
  rw [tile_after m c t ht y, h63, zero_add]
  rfl

end Cert.KernelIdeal.Fold

end
-- ==== Proof.IdxSums.lean ====
/-
  A sum over the index set of a rank-1 or rank-3 array is the iterated sum over its coordinates.
-/
import Idealize.ShloMosaic.Lib.ValueIdx

noncomputable section

namespace Cert.IdxSums

open Idealize.ShloMosaic Idealize.ShloMosaic.ValueIdx

variable {M : Type*} [AddCommMonoid M]

/-- A rank-1 index set is its coordinate range. -/
def idxEquiv1 {n0 : Nat} : (⟨1, ![n0]⟩ : Shape).Idx ≃ Fin n0 where
  toFun i := i 0
  invFun a := ix1 a
  left_inv i := (eq_ix1 i).symm
  right_inv _ := rfl

theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.IdxSums

end
-- ==== Proof.OutArray.lean ====
/-
  From output tiles to the program's result.

  Batch tile `i`'s output tile is written back once, after its last sequence step (grid point `64·i + 63`), to block
  `i` of the 16 × 8 × 128 output array; the sixteen blocks tile the array. So entry `(i, r, l)` of the array ends
  holding batch tile `i`'s accumulated value, whatever `r` and `l`. The host then sums the array from zero and divides
  by 4096.
-/
import proofs.«175813_j9380208574579_2_alg».proof.Proof.TileFold
import proofs.«175813_j9380208574579_2_alg».proof.Proof.IdxSums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.KernelIdeal.Fold

variable (m : (ℓ : Loc nD τ sig) → Buf (Elt Ideal) ℓ) (ρ : Dev nD → PrngReg)

/-- Entry `(i, r, l)` of the output array after the region: batch tile `i`'s accumulated value. -/
def outVal (c : Dev nD) : S16x8x128.Idx → EReal := fun y => tileVal m c (y 0).val

/-- The output array after the region, as the contents of its buffer. -/
def outArr (c : Dev nD) : Buf (Elt Ideal) ((c : Thread nD τ).loc main_v0) := outVal m c

/-- The output window's block index at a grid point: batch tile `t / 64`, the whole 8 × 128 face. -/
theorem idx_out : ∀ t : Fin cfg0.N, win0_1.index t (0 : Fin 3) = t.val / 64 ∧ win0_1.index t (1 : Fin 3) = 0
    ∧ win0_1.index t (2 : Fin 3) = 0 :=
  (by decide +kernel : ∀ t : Fin grid0.N, _)

/-- What a flushing point writes back is its block of `outArr`. -/
theorem flushed_eq (c : Dev nD) (t : Fin cfg0.N) (hf : (cfg0.win 1).flush t = true) :
    (dats m 0 c).flushed 1 t = ((cfg0.win 1).blk t).view.read (Elt Ideal) (outArr m c) := by
  have h63 : t.val % 64 = 63 := (flush0_1 t).mp hf
  obtain ⟨e0, e1, e2⟩ := idx_out t
  show (cfg0.win 1).cut (grid0.coords t) ((dats m 0 c).after 1 t) = _
  rw [after0_1]
  funext y
  show outsAt0 m c t.val t.isLt y = outArr m c (((cfg0.win 1).blk t).view.emb y)
  rw [tile_last m c t.val t.isLt h63 y]
  show tileVal m c (t.val / 64) = tileVal m c ((((cfg0.win 1).blk t).view.emb y) 0).val
  congr 1
  show t.val / 64 = win0_1.index t (0 : Fin 3) * 1 + 1 * (y 0).val
  have hy : (y 0).val < 1 := (y 0).isLt
  omega

/-- An index of the array is in point `t`'s block iff each coordinate is in the block's range on its axis. -/
theorem mem_blk (t : Fin cfg0.N) (i : S16x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v0).slice (win0_1.rect t)).set ↔ _
  rw [View.set_slice_whole, Rect.mem_set_unit]
  exact Iff.rfl

/-- Every entry of the array is in the block the last sequence step of its batch tile writes back. -/
theorem cover (i : S16x8x128.Idx) :
    ∃ t : Fin cfg0.N, (cfg0.win 1).flush t = true ∧ i ∈ ((cfg0.win 1).blk t).view.set := by
  have h0 : (i 0).val < 16 := (i 0).isLt
  have h1 : (i 1).val < 8 := (i 1).isLt
  have h2 : (i 2).val < 128 := (i 2).isLt
  have hN : cfg0.N = 1024 := N_0
  have hlt : 64 * (i 0).val + 63 < cfg0.N := by rw [hN]; omega
  obtain ⟨e0, e1, e2⟩ := idx_out ⟨64 * (i 0).val + 63, hlt⟩
  refine ⟨⟨64 * (i 0).val + 63, hlt⟩, (flush0_1 _).mpr (by show (64 * (i 0).val + 63) % 64 = 63; omega), ?_⟩
  rw [mem_blk]
  intro a
  match a with
  | ⟨0, _⟩ =>
    show win0_1.index ⟨64 * (i 0).val + 63, hlt⟩ (0 : Fin 3) * 1 ≤ (i 0).val
      ∧ (i 0).val < win0_1.index ⟨64 * (i 0).val + 63, hlt⟩ (0 : Fin 3) * 1 + 1
    rw [e0]
    show (64 * (i 0).val + 63) / 64 * 1 ≤ (i 0).val ∧ (i 0).val < (64 * (i 0).val + 63) / 64 * 1 + 1
    omega
  | ⟨1, _⟩ =>
    show win0_1.index ⟨64 * (i 0).val + 63, hlt⟩ (1 : Fin 3) * 8 ≤ (i 1).val
      ∧ (i 1).val < win0_1.index ⟨64 * (i 0).val + 63, hlt⟩ (1 : Fin 3) * 8 + 8
    rw [e1]; omega
  | ⟨2, _⟩ =>
    show win0_1.index ⟨64 * (i 0).val + 63, hlt⟩ (2 : Fin 3) * 128 ≤ (i 2).val
      ∧ (i 2).val < win0_1.index ⟨64 * (i 0).val + 63, hlt⟩ (2 : Fin 3) * 128 + 128
    rw [e2]; omega

/-- The output array after the region. -/
theorem final_out (c : Dev nD) : (dats m 0 c).arrAt 1 cfg0.N = outArr m c :=
  (dats m 0 c).arrAt_eq_of_cover 1 (outArr m c) (flushed_eq m c) (fun i => cover i)

/-- The program's result: the output array summed from zero, divided by 4096. -/
def result (c : Dev nD) : Buf (Elt Ideal) ((c : Thread nD τ).loc main_v2) :=
  Host.divf (Host.reduceAdd (F := Ideal) (outArr m c) (constant S_ .f32 0x00000000#32) reducesTo_S16x8x128_S_d0_1_2 h_S_)
    (constant (F := Ideal) S_ .f32 0x45800000#32)

/-- The host operations after the region compute it from the output array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v0) = outArr m c :=
    (Pipeline.withArrays_arr spec0 launch0.win.arr_inj c _ _ 1).trans (final_out m c)
  unfold result
  exact congrArg (fun z => Host.divf (Host.reduceAdd (F := Ideal) z (constant S_ .f32 0x00000000#32)
    reducesTo_S16x8x128_S_d0_1_2 h_S_) (constant (F := Ideal) S_ .f32 0x45800000#32)) e

/-- The result at its one index: the sum, over every entry of the output array, of its batch tile's accumulated
    value, divided by 4096. -/
theorem result_apply (c : Dev nD) (i : S_.Idx) :
    result m c i = (∑ a : Fin 16, ∑ _r : Fin 8, ∑ _l : Fin 128, tileVal m c a.val) * ((1 / 4096 : ℝ) : EReal) := by
  have h1 : Host.reduceAdd (F := Ideal) (outArr m c) (constant S_ .f32 0x00000000#32) reducesTo_S16x8x128_S_d0_1_2 h_S_ i
      = constant (F := Ideal) S_ .f32 0x00000000#32 (Shape.Idx.first h_S_) + ∑ j : S16x8x128.Idx, outVal m c j := by
    simp only [Host.reduceAdd, Ideal.hostReduceAdd_def]
    exact Ideal.hostReduceAdd_total reducesTo_S16x8x128_S_d0_1_2 (fun b => b.elim0) (outVal m c) _ i
  unfold result
  show Ideal.div (Host.reduceAdd (F := Ideal) (outArr m c) (constant S_ .f32 0x00000000#32) reducesTo_S16x8x128_S_d0_1_2 h_S_ i)
    (Ideal.ofBits .f32 0x45800000#32) = _
  rw [h1, Cert.Consts.div_4096]
  show (Ideal.ofBits .f32 0x00000000#32 + _) * _ = _
  rw [Cert.Consts.ofBits_zero, zero_add, Cert.IdxSums.sum_idx3]
  rfl

/-- The run, read: the result buffer at `result`, the argument unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0) :=
  (θ_run defs _ _).mono (fun _ h c =>
      ⟨((h c).2 main_v2 (Pipeline.mem_restRefs_of main_v2 rfl (by decide))).trans (tail_eq m c),
        ((h c).1 0).trans (((dats m 0 c).arrAt_in 0 rfl _).trans ((A_eq m c 0).trans (V_main_arg0 m c)))⟩)
    (run_main m ρ)

end Cert.KernelIdeal.Out

end
-- ==== Proof.SumLaws.lean ====
/-
  Laws of finite sums of extended reals used to compare two arrangements of one total.

  Multiplication on the extended reals does not distribute over addition in general (`⊤ + ⊥`), but it does over
  sums of NONNEGATIVE terms, which is all that is needed here: every summand below is a `max _ 0`.
  Besides that: a sum over `Fin (m * n)` split into `m` blocks of `n`, and sums moved past one another.
-/
import Mathlib

noncomputable section

namespace Cert.SumLaws

open Finset

/-- A nonnegative sum times any factor is the sum of the products. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- The same over a whole finite type. -/
theorem univ_sum_mul_of_nonneg {ι : Type*} [Fintype ι] (f : ι → EReal) (hf : ∀ i, 0 ≤ f i) (c : EReal) :
    (∑ i, f i) * c = ∑ i, f i * c :=
  sum_mul_of_nonneg Finset.univ f (fun i _ => hf i) c

/-- Three nonnegative terms times a common factor. -/
theorem add3_mul_of_nonneg {x y z : EReal} (hx : 0 ≤ x) (hy : 0 ≤ y) (hz : 0 ≤ z) (c : EReal) :
    x * c + y * c + z * c = (x + y + z) * c := by
  rw [EReal.right_distrib_of_nonneg (add_nonneg hx hy) hz, EReal.right_distrib_of_nonneg hx hy]

/-- The number of terms of a constant sum, as an extended real. -/
theorem sum_one {ι : Type*} (s : Finset ι) : ∑ _i ∈ s, (1 : EReal) = ((s.card : ℝ) : EReal) := by
  classical
  induction s using Finset.induction_on with
  | empty => simp
  | insert a s ha ih =>
    rw [Finset.sum_insert ha, ih, Finset.card_insert_of_notMem ha, ← EReal.coe_one, ← EReal.coe_add]
    congr 1
    push_cast
    ring

/-- A constant summed over a finite set is the constant times the number of terms (no sign condition: the
    factor that is split is the count, which is nonnegative). -/
theorem sum_const_eq_mul {ι : Type*} (s : Finset ι) (u : EReal) : ∑ _i ∈ s, u = ((s.card : ℝ) : EReal) * u := by
  rw [← sum_one s, sum_mul_of_nonneg s (fun _ => (1 : EReal)) (fun _ _ => zero_le_one) u]
  simp

/-- Spread over an 8 × 128 tile and summed back, `w · (1/1024)` is `w`, at the infinities too. -/
theorem tile_sum (w : EReal) :
    ∑ _r : Fin 8, ∑ _l : Fin 128, w * ((1 / 1024 : ℝ) : EReal) = w := by
  rw [sum_const_eq_mul, sum_const_eq_mul, Finset.card_univ, Finset.card_univ, Fintype.card_fin, Fintype.card_fin,
    mul_comm w, ← mul_assoc, ← mul_assoc, ← EReal.coe_mul, ← EReal.coe_mul]
  have : ((8 : ℕ) : ℝ) * ((128 : ℕ) : ℝ) * (1 / 1024 : ℝ) = 1 := by norm_num
  rw [this, EReal.coe_one, one_mul]

/-! ## Blocks of an index range -/

variable {M : Type*} [AddCommMonoid M]

/-- Position `j` of block `i`, among `m` blocks of `n`. -/
theorem blk_lt {m n N : ℕ} (hN : m * n = N) (i : Fin m) (j : Fin n) : n * i.val + j.val < N := by
  subst hN
  have hi : i.val + 1 ≤ m := i.isLt
  have hj := j.isLt
  calc n * i.val + j.val < n * i.val + n := by omega
    _ = n * (i.val + 1) := by ring
    _ ≤ n * m := Nat.mul_le_mul_left n hi
    _ = m * n := Nat.mul_comm n m

/-- Position `j` of block `i` as an index of the whole range. -/
def blk (m n N : ℕ) (hN : m * n = N) (i : Fin m) (j : Fin n) : Fin N := ⟨n * i.val + j.val, blk_lt hN i j⟩

@[simp] theorem blk_val (m n N : ℕ) (hN : m * n = N) (i : Fin m) (j : Fin n) :
    (blk m n N hN i j).val = n * i.val + j.val := rfl

/-- A sum over `m · n` indices is the sum over the `m` blocks of the sums over each block's `n` positions. -/
theorem sum_blocks (m n N : ℕ) (hN : m * n = N) (f : Fin N → M) :
    ∑ t, f t = ∑ i : Fin m, ∑ j : Fin n, f (blk m n N hN i j) := by
  subst hN
  rw [← Equiv.sum_comp finProdFinEquiv f, Fintype.sum_prod_type]
  refine Finset.sum_congr rfl fun i _ => Finset.sum_congr rfl fun j _ => congrArg f (Fin.ext ?_)
  show j.val + n * i.val = n * i.val + j.val
  omega

/-- The outermost of three sums moved innermost. -/
theorem sum_rotate {α β γ : Type*} [Fintype α] [Fintype β] [Fintype γ] (f : α → β → γ → M) :
    ∑ a, ∑ b, ∑ c, f a b c = ∑ b, ∑ c, ∑ a, f a b c := by
  rw [Finset.sum_comm]
  exact Finset.sum_congr rfl fun b _ => Finset.sum_comm

end Cert.SumLaws

end
-- ==== Proof.Regroup.lean ====
/-
  One total, two arrangements.

  The reference sums over the batch first, divides by 4096, then sums over sequence and level; the kernel cuts the
  array into 16 × 64 tiles of 256 × 32 rows, sums each tile, scales by 1/1024, spreads the result over 1024 tile
  entries, sums those back and divides by 4096. Both are `total x · (1/4096)`:
    • the total is the sum over the tiles of each tile's block sum (sums re-indexed and moved past one another);
    • 1024 copies of `w · (1/1024)` sum to `w`;
    • a common factor moves across a sum of nonnegative terms.
-/
import proofs.«175813_j9380208574579_2_alg».proof.Proof.Spec
import proofs.«175813_j9380208574579_2_alg».proof.Proof.SumLaws

noncomputable section

namespace Cert.Regroup

open Cert.Spec Cert.SumLaws Idealize.ShloMosaic Idealize.ShloMosaic.ValueIdx

/-- Batch index `256·i + b` of row `b` of batch tile `i`; sequence index `32·j + s` likewise. -/
abbrev batchIdx (i : Fin 16) (b : Fin 256) : Fin 4096 := blk 16 256 4096 (by norm_num) i b
abbrev seqIdx (j : Fin 64) (s : Fin 32) : Fin 2048 := blk 64 32 2048 (by norm_num) j s

/-- The 256 × 32 rows of batch tile `i`, sequence tile `j`. -/
def tileOf (x : Book 4096 2048) (i : Fin 16) (j : Fin 64) : Book 256 32 :=
  fun y => x (ix3 (batchIdx i ⟨(y 0).val, (y 0).isLt⟩) (seqIdx j ⟨(y 1).val, (y 1).isLt⟩) ⟨(y 2).val, (y 2).isLt⟩)

theorem askV_tileOf (x : Book 4096 2048) (i : Fin 16) (j : Fin 64) (b : Fin 256) (s : Fin 32) (k : Fin 4) :
    askV (tileOf x i j) b s k = askV x (batchIdx i b) (seqIdx j s) k := rfl
theorem bidV_tileOf (x : Book 4096 2048) (i : Fin 16) (j : Fin 64) (b : Fin 256) (s : Fin 32) (k : Fin 4) :
    bidV (tileOf x i j) b s k = bidV x (batchIdx i b) (seqIdx j s) k := rfl
theorem crossV_tileOf (x : Book 4096 2048) (i : Fin 16) (j : Fin 64) (b : Fin 256) (s : Fin 32) :
    crossV (tileOf x i j) b s = crossV x (batchIdx i b) (seqIdx j s) := rfl

section
variable {M : Type*} [AddCommMonoid M]

/-- A sum over batch, sequence and level, tile by tile, each tile summed batch-innermost. -/
theorem regroup3 (g : Fin 4096 → Fin 2048 → Fin 4 → M) :
    ∑ b, ∑ s, ∑ k, g b s k
      = ∑ i : Fin 16, ∑ j : Fin 64, ∑ s : Fin 32, ∑ k : Fin 4, ∑ b : Fin 256, g (batchIdx i b) (seqIdx j s) k := by
  calc ∑ b, ∑ s, ∑ k, g b s k
      = ∑ s, ∑ k, ∑ b, g b s k := sum_rotate g
    _ = ∑ j : Fin 64, ∑ s : Fin 32, ∑ k, ∑ b, g b (seqIdx j s) k :=
        sum_blocks 64 32 2048 (by norm_num) fun s => ∑ k, ∑ b, g b s k
    _ = ∑ j : Fin 64, ∑ s : Fin 32, ∑ k, ∑ i : Fin 16, ∑ b : Fin 256, g (batchIdx i b) (seqIdx j s) k :=
        Finset.sum_congr rfl fun j _ => Finset.sum_congr rfl fun s _ => Finset.sum_congr rfl fun k _ =>
          sum_blocks 16 256 4096 (by norm_num) fun b => g b (seqIdx j s) k
    _ = ∑ j : Fin 64, ∑ i : Fin 16, ∑ s : Fin 32, ∑ k, ∑ b : Fin 256, g (batchIdx i b) (seqIdx j s) k :=
        Finset.sum_congr rfl fun j _ =>
          (sum_rotate fun (i : Fin 16) (s : Fin 32) (k : Fin 4) => ∑ b : Fin 256, g (batchIdx i b) (seqIdx j s) k).symm
    _ = _ := Finset.sum_comm

/-- A sum over batch and sequence, tile by tile. -/
theorem regroup2 (g : Fin 4096 → Fin 2048 → M) :
    ∑ b, ∑ s, g b s = ∑ i : Fin 16, ∑ j : Fin 64, ∑ b : Fin 256, ∑ s : Fin 32, g (batchIdx i b) (seqIdx j s) := by
  calc ∑ b, ∑ s, g b s
      = ∑ i : Fin 16, ∑ b : Fin 256, ∑ s, g (batchIdx i b) s :=
        sum_blocks 16 256 4096 (by norm_num) fun b => ∑ s, g b s
    _ = ∑ i : Fin 16, ∑ b : Fin 256, ∑ j : Fin 64, ∑ s : Fin 32, g (batchIdx i b) (seqIdx j s) :=
        Finset.sum_congr rfl fun i _ => Finset.sum_congr rfl fun b _ =>
          sum_blocks 64 32 2048 (by norm_num) fun s => g (batchIdx i b) s
    _ = _ := Finset.sum_congr rfl fun i _ => Finset.sum_comm

end

/-- The total is the sum over the tiles of each tile's block sum. -/
theorem total_eq_tiles (x : Book 4096 2048) : total x = ∑ i : Fin 16, ∑ j : Fin 64, blockSum (tileOf x i j) := by
  unfold total blockSum
  simp only [askV_tileOf, bidV_tileOf, crossV_tileOf]
  rw [regroup3 (askV x), regroup3 (bidV x), regroup2 (crossV x)]
  simp only [← Finset.sum_add_distrib]

/-- Each tile's block sum scaled by 1/1024, spread over the 8 × 128 entries of the batch tile's output tile and
    accumulated over the 64 sequence tiles, summed over every entry of every output tile: the total. -/
theorem spread_total (x : Book 4096 2048) :
    ∑ i : Fin 16, ∑ _r : Fin 8, ∑ _l : Fin 128, ∑ j : Fin 64, blockSum (tileOf x i j) * ((1 / 1024 : ℝ) : EReal)
      = total x := by
  rw [total_eq_tiles]
  refine Finset.sum_congr rfl fun i _ => ?_
  rw [← univ_sum_mul_of_nonneg (fun j => blockSum (tileOf x i j)) (fun j => blockSum_nonneg _)]
  exact tile_sum _

/-- Mean over the batch, then sum over sequence and level: the sum over everything, divided once. -/
theorem mean_sum3 (g : Fin 4096 → Fin 2048 → Fin 4 → EReal) (hg : ∀ b s k, 0 ≤ g b s k) (q : EReal) :
    ∑ s, ∑ k, (∑ b, g b s k) * q = (∑ b, ∑ s, ∑ k, g b s k) * q := by
  rw [sum_rotate g,
    univ_sum_mul_of_nonneg (fun s => ∑ k, ∑ b, g b s k)
      (fun s => Finset.sum_nonneg fun k _ => Finset.sum_nonneg fun b _ => hg b s k)]
  refine Finset.sum_congr rfl fun s _ => ?_
  rw [univ_sum_mul_of_nonneg (fun k => ∑ b, g b s k) (fun k => Finset.sum_nonneg fun b _ => hg b s k)]

/-- Mean over the batch, then sum over the sequence. -/
theorem mean_sum2 (g : Fin 4096 → Fin 2048 → EReal) (hg : ∀ b s, 0 ≤ g b s) (q : EReal) :
    ∑ s, (∑ b, g b s) * q = (∑ b, ∑ s, g b s) * q := by
  rw [Finset.sum_comm, univ_sum_mul_of_nonneg (fun s => ∑ b, g b s) (fun s => Finset.sum_nonneg fun b _ => hg b s)]

/-- The reference's arrangement is the loss. -/
theorem means_eq_loss (x : Book 4096 2048) :
    ((∑ s, ∑ k, (∑ b, askV x b s k) * ((1 / 4096 : ℝ) : EReal)) + (∑ s, ∑ k, (∑ b, bidV x b s k) * ((1 / 4096 : ℝ) : EReal)))
      + ∑ s, (∑ b, crossV x b s) * ((1 / 4096 : ℝ) : EReal) = loss x := by
  rw [mean_sum3 (askV x) (askV_nonneg x), mean_sum3 (bidV x) (bidV_nonneg x), mean_sum2 (crossV x) (crossV_nonneg x)]
  exact add3_mul_of_nonneg
    (Finset.sum_nonneg fun b _ => Finset.sum_nonneg fun s _ => Finset.sum_nonneg fun k _ => askV_nonneg x b s k)
    (Finset.sum_nonneg fun b _ => Finset.sum_nonneg fun s _ => Finset.sum_nonneg fun k _ => bidV_nonneg x b s k)
    (Finset.sum_nonneg fun b _ => Finset.sum_nonneg fun s _ => crossV_nonneg x b s) _

end Cert.Regroup

end
-- ==== Proof.KernelValue.lean ====
/-
  The kernel computes the loss.

  Grid point `64·a + j` reads rows `256·a … 256·a + 255` at sequence positions `32·j … 32·j + 31` of the argument:
  its input block is tile `(a, j)` of the array. So batch tile `a`'s accumulated value is the sum over `j` of the
  tiles' block sums times 1/1024, and the program's result — that value summed over all 16 × 8 × 128 entries of the
  output array and divided by 4096 — is `total · (1/4096)`.
-/
import proofs.«175813_j9380208574579_2_alg».proof.Proof.OutArray
import proofs.«175813_j9380208574579_2_alg».proof.Proof.Regroup

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.Fold Cert.KernelIdeal.Out Cert.Spec Cert.Regroup

variable (m : (ℓ : Loc nD τ sig) → Buf (Elt Ideal) ℓ)

/-- The argument array, as order-book rows. -/
abbrev arg (c : Dev nD) : Book 4096 2048 := m ((c : Thread nD τ).loc main_arg0)

/-- The input window's block index at a grid point: batch tile `t / 64`, sequence tile `t % 64`, all features. -/
theorem idx_in : ∀ t : Fin cfg0.N, win0_0.index t (0 : Fin 3) = t.val / 64 ∧ win0_0.index t (1 : Fin 3) = t.val % 64
    ∧ win0_0.index t (2 : Fin 3) = 0 :=
  (by decide +kernel : ∀ t : Fin grid0.N, _)

/-- The block grid point `64·a + j` reads is tile `(a, j)` of the argument. -/
theorem blockAt_eq (c : Dev nD) (a : Fin 16) (j : Fin 64) (h : 64 * a.val + j.val < cfg0.N) :
    blockAt m c (64 * a.val + j.val) h = tileOf (arg m c) a j := by
  obtain ⟨e0, e1, e2⟩ := idx_in ⟨64 * a.val + j.val, h⟩
  have ha := a.isLt
  have hj := j.isLt
  funext y
  unfold blockAt iblk tileOf
  rw [View.read_apply]
  show V m c main_arg0 _ = m ((c : Thread nD τ).loc main_arg0) _
  refine congrArg (m ((c : Thread nD τ).loc main_arg0)) (funext fun d => Fin.ext ?_)
  match d with
  | ⟨0, _⟩ =>
    show win0_0.index ⟨64 * a.val + j.val, h⟩ (0 : Fin 3) * 256 + 1 * (y 0).val = 256 * a.val + (y 0).val
    rw [e0]
    show (64 * a.val + j.val) / 64 * 256 + 1 * (y 0).val = 256 * a.val + (y 0).val
    omega
  | ⟨1, _⟩ =>
    show win0_0.index ⟨64 * a.val + j.val, h⟩ (1 : Fin 3) * 32 + 1 * (y 1).val = 32 * j.val + (y 1).val
    rw [e1]
    show (64 * a.val + j.val) % 64 * 32 + 1 * (y 1).val = 32 * j.val + (y 1).val
    omega
  | ⟨2, _⟩ =>
    show win0_0.index ⟨64 * a.val + j.val, h⟩ (2 : Fin 3) * 10 + 1 * (y 2).val = (y 2).val
    rw [e2]
    omega

/-- Batch tile `a`'s accumulated value: its 64 tiles' block sums, each times 1/1024. -/
theorem tileVal_eq (c : Dev nD) (a : Fin 16) :
    tileVal m c a.val = ∑ j : Fin 64, blockSum (tileOf (arg m c) a j) * ((1 / 1024 : ℝ) : EReal) := by
  unfold tileVal
  rw [Finset.sum_range]
  refine Finset.sum_congr rfl fun j _ => ?_
  have ha := a.isLt
  have hj := j.isLt
  have h : 64 * a.val + j.val < cfg0.N := by rw [show cfg0.N = 1024 from N_0]; omega
  unfold contrib
  rw [dif_pos h, blockAt_eq m c a j h]

/-- The kernel's result, at its one index, is the loss of the argument. -/
theorem result_eq_loss (c : Dev nD) (i : S_.Idx) : result m c i = loss (arg m c) := by
  rw [result_apply]
  unfold loss
  refine congrArg (· * _) ?_
  rw [← spread_total (arg m c)]
  exact Finset.sum_congr rfl fun a _ => Finset.sum_congr rfl fun _ _ => Finset.sum_congr rfl fun _ _ => tileVal_eq m c a

end Cert.KernelIdeal.Value

end
-- ==== Proof.RefValue.lean ====
/-
  The reference computes the loss.

  Each of its three branches cuts feature windows out of the array, subtracts, clamps below at zero, sums over the
  batch from zero, divides by 4096 and sums what is left from zero. Read at an index through the stages of the
  reference's run, the three branches are the means of the three kinds of violation, and their sum is the loss.
-/
import proofs.«175813_j9380208574579_2_alg».proof.Proof.Gen.ReferenceIdeal.Read
import proofs.«175813_j9380208574579_2_alg».proof.Proof.Regroup
import proofs.«175813_j9380208574579_2_alg».proof.Proof.Consts
import proofs.«175813_j9380208574579_2_alg».proof.Proof.IdxSums
import Idealize.ShloMosaic.Lib.ValueIdx

noncomputable section

open Idealize.ShloMosaic Idealize.ShloMosaic.ValueIdx

namespace Cert.ReferenceIdeal.RefValue

open Cert.ReferenceIdeal Cert.ReferenceIdeal.Read Cert.Spec Cert.IdxSums

/-! ## The clamped differences -/

theorem ask_at (x : Book 4096 2048) (b : Fin 4096) (s : Fin 2048) (k : Fin 4) :
    val_main_v5 (F := Ideal) x (ix3 b s k) = askV x b s k := by
  have e2 : idx_main_v1 (idx_main_v2 (ix3 b s k)) = ix3 b s (⟨5 + k.val, by omega⟩ : Fin 10) :=
    funext fun a => Fin.ext (by match a with | ⟨0, _⟩ => rfl | ⟨1, _⟩ => rfl | ⟨2, _⟩ => rfl)
  have e3 : idx_main_v1 (idx_main_v3 (ix3 b s k)) = ix3 b s (⟨6 + k.val, by omega⟩ : Fin 10) :=
    funext fun a => Fin.ext (by
      match a with
      | ⟨0, _⟩ => rfl
      | ⟨1, _⟩ => rfl
      | ⟨2, _⟩ => show 5 + (1 + k.val) = 6 + k.val; omega)
  rw [val_main_v5_apply, val_main_v4_apply, val_main_v2_apply, val_main_v3_apply, val_main_v1_apply, val_main_v1_apply,
    val_main_call0_v0_apply, val_main_call0_cst_apply, e2, e3]
  show max (_ - _) (Ideal.ofBits .f32 0x00000000#32) = _
  rw [Cert.Consts.ofBits_zero]
  rfl

theorem bid_at (x : Book 4096 2048) (b : Fin 4096) (s : Fin 2048) (k : Fin 4) :
    val_main_v9 (F := Ideal) x (ix3 b s k) = bidV x b s k := by
  have e6 : idx_main_v0 (idx_main_v6 (ix3 b s k)) = ix3 b s (⟨1 + k.val, by omega⟩ : Fin 10) :=
    funext fun a => Fin.ext (by match a with | ⟨0, _⟩ => rfl | ⟨1, _⟩ => rfl | ⟨2, _⟩ => rfl)
  have e7 : idx_main_v0 (idx_main_v7 (ix3 b s k)) = ix3 b s (⟨k.val, by omega⟩ : Fin 10) :=
    funext fun a => Fin.ext (by match a with | ⟨0, _⟩ => rfl | ⟨1, _⟩ => rfl | ⟨2, _⟩ => rfl)
  rw [val_main_v9_apply, val_main_v8_apply, val_main_v6_apply, val_main_v7_apply, val_main_v0_apply, val_main_v0_apply,
    val_main_call1_v0_apply, val_main_call1_cst_apply, e6, e7]
  show max (_ - _) (Ideal.ofBits .f32 0x00000000#32) = _
  rw [Cert.Consts.ofBits_zero]
  rfl

theorem cross_at (x : Book 4096 2048) (b : Fin 4096) (s : Fin 2048) :
    val_main_v15 (F := Ideal) x (ix2 b s) = crossV x b s := by
  have hb := b.isLt
  have hs := s.isLt
  have e11 : idx_main_v0 (idx_main_v10 (idx_main_v11 (ix2 b s))) = ix3 b s (⟨0, by omega⟩ : Fin 10) :=
    funext fun a => Fin.ext (by
      match a with
      | ⟨0, _⟩ => show (b.val * 2048 + s.val) / 2048 = b.val; omega
      | ⟨1, _⟩ => show (b.val * 2048 + s.val) / 1 % 2048 = s.val; omega
      | ⟨2, _⟩ => rfl)
  have e13 : idx_main_v1 (idx_main_v12 (idx_main_v13 (ix2 b s))) = ix3 b s (⟨5, by omega⟩ : Fin 10) :=
    funext fun a => Fin.ext (by
      match a with
      | ⟨0, _⟩ => show (b.val * 2048 + s.val) / 2048 = b.val; omega
      | ⟨1, _⟩ => show (b.val * 2048 + s.val) / 1 % 2048 = s.val; omega
      | ⟨2, _⟩ => rfl)
  rw [val_main_v15_apply, val_main_v14_apply, val_main_v11_apply, val_main_v13_apply, val_main_v10_apply,
    val_main_v12_apply, val_main_v0_apply, val_main_v1_apply, val_main_call2_v0_apply, val_main_call2_cst_apply, e11, e13]
  show max (_ - _) (Ideal.ofBits .f32 0x00000000#32) = _
  rw [Cert.Consts.ofBits_zero]
  rfl

/-! ## The means over the batch -/

theorem ask_mean (x : Book 4096 2048) (s : Fin 2048) (k : Fin 4) :
    val_main_v18 (F := Ideal) x (ix2 s k) = (∑ b : Fin 4096, askV x b s k) * ((1 / 4096 : ℝ) : EReal) := by
  have e : ∀ b : Fin 4096, idx_main_v16 (ix2 s k) b = ix3 b s k := fun b =>
    funext fun a => Fin.ext (by match a with | ⟨0, _⟩ => rfl | ⟨1, _⟩ => rfl | ⟨2, _⟩ => rfl)
  rw [val_main_v18_apply, val_main_v16_apply, val_main_v17_apply, val_main_cst_0_apply, val_main_cst_apply]
  show Ideal.div (Ideal.ofBits .f32 0x00000000#32 + _) (Ideal.ofBits .f32 0x45800000#32) = _
  rw [Cert.Consts.div_4096, Cert.Consts.ofBits_zero, zero_add]
  exact congrArg (· * _) (Finset.sum_congr rfl fun b _ => by rw [e b, ask_at])

theorem bid_mean (x : Book 4096 2048) (s : Fin 2048) (k : Fin 4) :
    val_main_v22 (F := Ideal) x (ix2 s k) = (∑ b : Fin 4096, bidV x b s k) * ((1 / 4096 : ℝ) : EReal) := by
  have e : ∀ b : Fin 4096, idx_main_v20 (ix2 s k) b = ix3 b s k := fun b =>
    funext fun a => Fin.ext (by match a with | ⟨0, _⟩ => rfl | ⟨1, _⟩ => rfl | ⟨2, _⟩ => rfl)
  rw [val_main_v22_apply, val_main_v20_apply, val_main_v21_apply, val_main_cst_3_apply, val_main_cst_2_apply]
  show Ideal.div (Ideal.ofBits .f32 0x00000000#32 + _) (Ideal.ofBits .f32 0x45800000#32) = _
  rw [Cert.Consts.div_4096, Cert.Consts.ofBits_zero, zero_add]
  exact congrArg (· * _) (Finset.sum_congr rfl fun b _ => by rw [e b, bid_at])

theorem cross_mean (x : Book 4096 2048) (s : Fin 2048) :
    val_main_v27 (F := Ideal) x (ix1 s) = (∑ b : Fin 4096, crossV x b s) * ((1 / 4096 : ℝ) : EReal) := by
  have e : ∀ b : Fin 4096, idx_main_v25 (ix1 s) b = ix2 b s := fun b =>
    funext fun a => Fin.ext (by match a with | ⟨0, _⟩ => rfl | ⟨1, _⟩ => rfl)
  rw [val_main_v27_apply, val_main_v25_apply, val_main_v26_apply, val_main_cst_6_apply, val_main_cst_5_apply]
  show Ideal.div (Ideal.ofBits .f32 0x00000000#32 + _) (Ideal.ofBits .f32 0x45800000#32) = _
  rw [Cert.Consts.div_4096, Cert.Consts.ofBits_zero, zero_add]
  exact congrArg (· * _) (Finset.sum_congr rfl fun b _ => by rw [e b, cross_at])

/-! ## The result -/

/-- The reference's result, at its one index, is the loss. -/
theorem result_eq_loss (x : Book 4096 2048) (i : S_.Idx) : val_main_v29 (F := Ideal) x i = loss x := by
  rw [val_main_v29_apply, val_main_v24_apply, val_main_v19_apply, val_main_v23_apply, val_main_v28_apply,
    val_main_cst_1_apply, val_main_cst_4_apply, val_main_cst_7_apply]
  show ((Ideal.ofBits .f32 0x00000000#32 + _) + (Ideal.ofBits .f32 0x00000000#32 + _))
    + (Ideal.ofBits .f32 0x00000000#32 + _) = _
  rw [Cert.Consts.ofBits_zero, zero_add, zero_add, zero_add, sum_idx2, sum_idx2, sum_idx1]
  simp only [ask_mean, bid_mean, cross_mean]
  exact Cert.Regroup.means_eq_loss x

end Cert.ReferenceIdeal.RefValue

end
-- ==== Proof.lean ====
/-
  Sum of order-book ordering violations, averaged over the batch: a tiled accumulating kernel against a plain
  reduction.

  Both programs compute, over an array `x` of 4096 × 2048 rows of ten prices, the total of the clamped differences
  `max (x[b,s,u] − x[b,s,w]) 0` for the nine feature pairs `(u, w)` that express "asks increase, bids decrease, the
  book is not crossed", divided by 4096. The reference takes the mean over the batch first and sums the means; the
  kernel cuts the array into 16 × 64 tiles, adds each tile's partial sum times 1/1024 to all 1024 entries of an
  8 × 128 output tile per batch tile, and the host sums the output array and divides by 4096. On the extended
  reals the two agree because every summand is nonnegative — a factor moves across a sum of nonnegative terms even
  at +∞ — and because 1024 · (w · 1/1024) = w; the precondition is never needed. Both results equal
  `Spec.loss x = Spec.total x · (1/4096)` (`KernelIdeal.Value.result_eq_loss`, `ReferenceIdeal.RefValue.result_eq_loss`).
  The three frames are the generated runs; the idealization rewrote nothing, so `preserves` is `True`.
-/
import proofs.«175813_j9380208574579_2_alg».proof.Defs
import proofs.«175813_j9380208574579_2_alg».proof.Proof.Gen.Kernel
import proofs.«175813_j9380208574579_2_alg».proof.Proof.Gen.Kernel.Skeleton
import proofs.«175813_j9380208574579_2_alg».proof.Proof.Gen.Kernel.Launch
import proofs.«175813_j9380208574579_2_alg».proof.Proof.Gen.Kernel.Points
import proofs.«175813_j9380208574579_2_alg».proof.Proof.Gen.Kernel.Frame
import proofs.«175813_j9380208574579_2_alg».proof.Proof.Gen.KernelIdeal
import proofs.«175813_j9380208574579_2_alg».proof.Proof.Gen.KernelIdeal.Skeleton
import proofs.«175813_j9380208574579_2_alg».proof.Proof.Gen.KernelIdeal.Launch
import proofs.«175813_j9380208574579_2_alg».proof.Proof.Gen.KernelIdeal.Points
import proofs.«175813_j9380208574579_2_alg».proof.Proof.Gen.KernelIdeal.Frame
import proofs.«175813_j9380208574579_2_alg».proof.Proof.Gen.ReferenceIdeal
import proofs.«175813_j9380208574579_2_alg».proof.Proof.Gen.Pre_finite_inputs
import proofs.«175813_j9380208574579_2_alg».proof.Proof.Gen.ReferenceIdeal.Run
import proofs.«175813_j9380208574579_2_alg».proof.Proof.Gen.ReferenceIdeal.Read
import proofs.«175813_j9380208574579_2_alg».proof.Proof.KernelValue
import proofs.«175813_j9380208574579_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the loss of the (agreeing) argument arrays in their result buffers. -/
theorem algebraic : Cert.algebraic_KernelIdeal_ReferenceIdeal := by
  intro m ρ m' ρ' _ hagree
  refine ⟨fun c => Cert.KernelIdeal.Out.result m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, hagree c]
  funext i
  exact (Cert.ReferenceIdeal.RefValue.result_eq_loss _ i).trans (Cert.KernelIdeal.Value.result_eq_loss m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
